-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4x256 : Shape := ⟨3, ![8192, 4, 256]⟩
abbrev S8192x4 : Shape := ⟨2, ![8192, 4]⟩
abbrev S4x8192 : Shape := ⟨2, ![4, 8192]⟩
abbrev S256x512 : Shape := ⟨2, ![256, 512]⟩
abbrev S512 : Shape := ⟨1, ![512]⟩
abbrev S_ : Shape := ⟨0, ![]⟩

class Facts : Prop where
  bcast_S_S8192x4x256 : S_.BroadcastsInDim S8192x4x256 (![] : Fin 0 → Fin S8192x4x256.rank)
  reducesTo_S8192x4x256_S_d0_1_2 : S8192x4x256.ReducesTo [0, 1, 2] S_
  h_S_ : 0 < S_.numel
  bcast_S_S8192x4 : S_.BroadcastsInDim S8192x4 (![] : Fin 0 → Fin S8192x4.rank)
  reducesTo_S8192x4_S_d0_1 : S8192x4.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8192x4x256 .f32) (main_arg1 : FVec F S8192x4 .f32) (main_arg2 : FVec F S8192x4 .f32) (main_arg3 : IVec S4x8192 1) (main_arg4 : FVec F S256x512 .f32) (main_arg5 : FVec F S512 .f32) : IVec S_ 1 :=
  let main_v0 : FVec F S8192x4x256 .f32 := Host.absf main_arg0
  let main_cst : FVec F S_ .f32 := constant S_ .f32 0x7F800000#32
  let main_v1 : FVec F S8192x4x256 .f32 := broadcastInDim S8192x4x256 ![] bcast_S_S8192x4x256 main_cst
  let main_v2 : IVec S8192x4x256 1 := cmpf .olt main_v0 main_v1
  let main_c : IVec S_ 1 := constantI S_ 1 1#1
  let main_v3 : IVec S_ 1 := (fun x v => Host.reduce IntOp.andi x v reducesTo_S8192x4x256_S_d0_1_2 h_S_) main_v2 main_c
  let main_v4 : FVec F S8192x4 .f32 := Host.absf main_arg1
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  let main_v9 : FVec F S8192x4 .f32 := Host.absf main_arg2
  let main_cst_2 : FVec F S_ .f32 := constant S_ .f32 0x7F800000#32
  let main_v10 : FVec F S8192x4 .f32 := broadcastInDim S8192x4 ![] bcast_S_S8192x4 main_cst_2
  let main_v11 : IVec S8192x4 1 := cmpf .olt main_v9 main_v10
  let main_c_3 : IVec S_ 1 := constantI S_ 1 1#1
  let main_v12 : IVec S_ 1 := (fun x v => Host.reduce IntOp.andi x v reducesTo_S8192x4_S_d0_1 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg5 main_v13 main_v16
-- ==== Kernel.lean ====
abbrev S8192x4x256 : Shape := ⟨3, ![8192, 4, 256]⟩
abbrev S8192x4 : Shape := ⟨2, ![8192, 4]⟩
abbrev S4x8192 : Shape := ⟨2, ![4, 8192]⟩
abbrev S256x512 : Shape := ⟨2, ![256, 512]⟩
abbrev S512 : Shape := ⟨1, ![512]⟩
abbrev S32768x256 : Shape := ⟨2, ![32768, 256]⟩
abbrev S32768x1 : Shape := ⟨2, ![32768, 1]⟩
abbrev S1x512 : Shape := ⟨2, ![1, 512]⟩
abbrev S1024x256 : Shape := ⟨2, ![1024, 256]⟩
abbrev S1024x1 : Shape := ⟨2, ![1024, 1]⟩
abbrev S1024x512 : Shape := ⟨2, ![1024, 512]⟩

abbrev nBuf : Space → Nat
  | .hbm => 16
  | .vmem => 12
  | .smem => 0
  | _ => 0

abbrev bufTy : (tb : Table) → Fin (tcTables nBuf tb) → BufTy
  | .hbm, ⟨0, _⟩ => ⟨S8192x4x256, .f32⟩
  | .hbm, ⟨1, _⟩ => ⟨S8192x4, .f32⟩
  | .hbm, ⟨2, _⟩ => ⟨S8192x4, .f32⟩
  | .hbm, ⟨3, _⟩ => ⟨S4x8192, .i1⟩
  | .hbm, ⟨4, _⟩ => ⟨S256x512, .f32⟩
  | .hbm, ⟨5, _⟩ => ⟨S512, .f32⟩
  | .hbm, ⟨6, _⟩ => ⟨S32768x256, .f32⟩
  | .hbm, ⟨7, _⟩ => ⟨S32768x1, .f32⟩
  | .hbm, ⟨8, _⟩ => ⟨S32768x1, .f32⟩
  | .hbm, ⟨9, _⟩ => ⟨S4x8192, .i1⟩
  | .hbm, ⟨10, _⟩ => ⟨S8192x4, .i1⟩
  | .hbm, ⟨11, _⟩ => ⟨S32768x1, .i1⟩
  | .hbm, ⟨12, _⟩ => ⟨S32768x1, .f32⟩
  | .hbm, ⟨13, _⟩ => ⟨S1x512, .f32⟩
  | .hbm, ⟨14, _⟩ => ⟨S32768x256, .f32⟩
  | .hbm, ⟨15, _⟩ => ⟨S8192x4x256, .f32⟩
  | .local _ .vmem, ⟨0, _⟩ => ⟨S1024x256, .f32⟩
  | .local _ .vmem, ⟨1, _⟩ => ⟨S1024x256, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S256x512, .f32⟩
  | .local _ .vmem, ⟨9, _⟩ => ⟨S1x512, .f32⟩
  | .local _ .vmem, ⟨10, _⟩ => ⟨S1024x256, .f32⟩
  | .local _ .vmem, ⟨11, _⟩ => ⟨S1024x256, .f32⟩
  | _, _ => ⟨S8192x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8192x4x256_S32768x256 : S8192x4x256.ShapeCasts S32768x256
  shapeCasts_S8192x4_S32768x1 : S8192x4.ShapeCasts S32768x1
  transposes_S4x8192_S8192x4_1_0 : S4x8192.Transposes [1, 0] S8192x4
  shapeCasts_S512_S1x512 : S512.ShapeCasts S1x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S1024x256 : S1024x512.Slices ![0, 0] S1024x256
  slices_S1024x512_o0_256_S1024x256 : S1024x512.Slices ![0, 256] S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  shapeCasts_S32768x256_S8192x4x256 : S32768x256.ShapeCasts S8192x4x256
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S32768x1.size a
  hwx0_1 : ∀ i : grid0.Coords, EltTy.bits .f32 = 32 ∨ (Rect.block (s := S32768x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .f32 = 32 ∨ (Rect.block (s := S32768x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S32768x1.size a
  hwx0_3 : ∀ i : grid0.Coords, EltTy.bits .f32 = 32 ∨ (Rect.block (s := S32768x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S32768x256.size a
  hwx0_6 : ∀ i : grid0.Coords, EltTy.bits .f32 = 32 ∨ (Rect.block (s := S32768x256) S1024x256.size (cc0_transform_6 i) (hinb0_6 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4x256 : Shape := ⟨3, ![8192, 4, 256]⟩
abbrev S8192x4 : Shape := ⟨2, ![8192, 4]⟩
abbrev S4x8192 : Shape := ⟨2, ![4, 8192]⟩
abbrev S256x512 : Shape := ⟨2, ![256, 512]⟩
abbrev S512 : Shape := ⟨1, ![512]⟩
abbrev S_ : Shape := ⟨0, ![]⟩
abbrev S8192x4x512 : Shape := ⟨3, ![8192, 4, 512]⟩
abbrev S1x1x512 : Shape := ⟨3, ![1, 1, 512]⟩
abbrev S8192x4x1 : Shape := ⟨3, ![8192, 4, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x4x256, .f32⟩
  | .hbm, ⟨1, _⟩ => ⟨S8192x4, .f32⟩
  | .hbm, ⟨2, _⟩ => ⟨S8192x4, .f32⟩
  | .hbm, ⟨3, _⟩ => ⟨S4x8192, .i1⟩
  | .hbm, ⟨4, _⟩ => ⟨S256x512, .f32⟩
  | .hbm, ⟨5, _⟩ => ⟨S512, .f32⟩
  | .hbm, ⟨6, _⟩ => ⟨S4x8192, .i1⟩
  | .hbm, ⟨7, _⟩ => ⟨S8192x4, .i1⟩
  | .hbm, ⟨8, _⟩ => ⟨S8192x4, .f32⟩
  | .hbm, ⟨9, _⟩ => ⟨S_, .f32⟩
  | .hbm, ⟨10, _⟩ => ⟨S8192x4, .f32⟩
  | .hbm, ⟨11, _⟩ => ⟨S8192x4, .i1⟩
  | .hbm, ⟨12, _⟩ => ⟨S8192x4, .f32⟩
  | .hbm, ⟨13, _⟩ => ⟨S8192x4, .f32⟩
  | .hbm, ⟨14, _⟩ => ⟨S_, .f32⟩
  | .hbm, ⟨15, _⟩ => ⟨S8192x4, .f32⟩
  | .hbm, ⟨16, _⟩ => ⟨S8192x4, .i1⟩
  | .hbm, ⟨17, _⟩ => ⟨S8192x4, .f32⟩
  | .hbm, ⟨18, _⟩ => ⟨S8192x4, .f32⟩
  | .hbm, ⟨19, _⟩ => ⟨S8192x4x512, .f32⟩
  | .hbm, ⟨20, _⟩ => ⟨S1x1x512, .f32⟩
  | .hbm, ⟨21, _⟩ => ⟨S8192x4x512, .f32⟩
  | .hbm, ⟨22, _⟩ => ⟨S8192x4x512, .f32⟩
  | .hbm, ⟨23, _⟩ => ⟨S_, .f32⟩
  | .hbm, ⟨24, _⟩ => ⟨S8192x4x512, .f32⟩
  | .hbm, ⟨25, _⟩ => ⟨S8192x4x512, .f32⟩
  | .hbm, ⟨26, _⟩ => ⟨S8192x4x256, .f32⟩
  | .hbm, ⟨27, _⟩ => ⟨S8192x4x256, .f32⟩
  | .hbm, ⟨28, _⟩ => ⟨S_, .f32⟩
  | .hbm, ⟨29, _⟩ => ⟨S8192x4, .f32⟩
  | .hbm, ⟨30, _⟩ => ⟨S8192x4, .f32⟩
  | .hbm, ⟨31, _⟩ => ⟨S8192x4, .f32⟩
  | .hbm, ⟨32, _⟩ => ⟨S8192x4x1, .f32⟩
  | .hbm, ⟨33, _⟩ => ⟨S8192x4x1, .f32⟩
  | .hbm, ⟨34, _⟩ => ⟨S8192x4x256, .f32⟩
  | .hbm, ⟨35, _⟩ => ⟨S8192x4x256, .f32⟩
  | .hbm, ⟨36, _⟩ => ⟨S_, .f32⟩
  | .hbm, ⟨37, _⟩ => ⟨S8192x4x1, .f32⟩
  | .hbm, ⟨38, _⟩ => ⟨S8192x4x1, .f32⟩
  | .hbm, ⟨39, _⟩ => ⟨S8192x4x256, .f32⟩
  | .hbm, ⟨40, _⟩ => ⟨S8192x4x256, .f32⟩
  | .hbm, ⟨41, _⟩ => ⟨S8192x4x256, .f32⟩
  | .hbm, ⟨42, _⟩ => ⟨S_, .f32⟩
  | .hbm, ⟨43, _⟩ => ⟨S8192x4x256, .f32⟩
  | .hbm, ⟨44, _⟩ => ⟨S8192x4x256, .f32⟩
  | .hbm, ⟨45, _⟩ => ⟨S8192x4x256, .f32⟩
  | .hbm, ⟨46, _⟩ => ⟨S8192x4x256, .f32⟩
  | .hbm, ⟨47, _⟩ => ⟨S8192x4x256, .f32⟩
  | _, _ => ⟨S8192x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  transposes_S4x8192_S8192x4_1_0 : S4x8192.Transposes [1, 0] S8192x4
  bcast_S_S8192x4 : S_.BroadcastsInDim S8192x4 (![] : Fin 0 → Fin S8192x4.rank)
  bcast_S512_S1x1x512_2 : S512.BroadcastsInDim S1x1x512 (![2] : Fin 1 → Fin S1x1x512.rank)
  bcast_S1x1x512_S8192x4x512_0_1_2 : S1x1x512.BroadcastsInDim S8192x4x512 (![0, 1, 2] : Fin 3 → Fin S8192x4x512.rank)
  bcast_S_S8192x4x512 : S_.BroadcastsInDim S8192x4x512 (![] : Fin 0 → Fin S8192x4x512.rank)
  slices_S8192x4x512_S8192x4x256_0_0_0 : S8192x4x512.Slices ![0, 0, 0] S8192x4x256
  slices_S8192x4x512_S8192x4x256_0_0_256 : S8192x4x512.Slices ![0, 0, 256] S8192x4x256
  bcast_S8192x4_S8192x4x1_0_1 : S8192x4.BroadcastsInDim S8192x4x1 (![0, 1] : Fin 2 → Fin S8192x4x1.rank)
  bcast_S8192x4x1_S8192x4x256_0_1_2 : S8192x4x1.BroadcastsInDim S8192x4x256 (![0, 1, 2] : Fin 3 → Fin S8192x4x256.rank)
  bcast_S_S8192x4x1 : S_.BroadcastsInDim S8192x4x1 (![] : Fin 0 → Fin S8192x4x1.rank)
  bcast_S_S8192x4x256 : S_.BroadcastsInDim S8192x4x256 (![] : Fin 0 → Fin S8192x4x256.rank)
  dot_S8192x4x256_S256x512_S8192x4x512_2_0_01_1_n_n_wf : DotDims.WF S8192x4x256 S256x512 S8192x4x512 [2] [0] [0, 1] [1] [] []

variable [Facts₀]

def dot_S8192x4x256_S256x512_S8192x4x512_2_0_01_1_n_n : DotDims S8192x4x256 S256x512 S8192x4x512 where
  lhsContracting := [2]
  rhsContracting := [0]
  lhsNonContracting := [0, 1]
  rhsNonContracting := [1]
  lhsBatch := []
  rhsBatch := []
  wf := dot_S8192x4x256_S256x512_S8192x4x512_2_0_01_1_n_n_wf

class Facts : Prop extends Facts₀ where

variable [Facts]
-- ==== Proof.RowLaw.lean ====
/-
  One token's output entry, as a function of scalars.

  For a token with validity `v`, foreground score `fg`, small-scale score `ss`, the entry `x` of its embedding at a
  channel and the merged split feature `mg` at that channel, the adapted token's entry is

      x · keep · (1 − split) + mg · split,     keep = v · (1 − discard),
      discard = [fg < 0.3] · v,                split = [ss ≥ 0.6] · v.

  The two programs differ in how the triple product is grouped — `x · (keep · (1 − split))` against
  `(x · keep) · (1 − split)` — and in how a comparison's bit becomes a number: a choice between the words of 1.0 and
  0.0, against the bit read as an unsigned integer. Multiplication of extended reals is associative without any
  finiteness hypothesis, and the two readings of a bit agree, so the two scalar functions are equal everywhere.
-/
import Idealize.ShloMosaic.PureOps.Ideal.Laws
import Idealize.ShloMosaic.Lib.ValueIdx
import Idealize.ShloMosaic.Lib.IdealHost

noncomputable section

open scoped BigOperators

namespace Cert.TokenRow

open Idealize.ShloMosaic Idealize.ShloMosaic.ValueIdx

/-- A column `q < 256` as a column of the first half of the 512 projected features. -/
abbrev lo (q : Fin 256) : Fin 512 := ⟨q.val, by have := q.isLt; omega⟩
/-- The matching column of the second half. -/
abbrev hi (q : Fin 256) : Fin 512 := ⟨256 + q.val, by have := q.isLt; omega⟩

/-- A comparison's bit as a number by choosing between the words of 1.0 and 0.0. -/
def flagSel (c : BitVec 1) : EReal :=
  Scalar.select c (Ideal.ofBits .f32 0x3F800000#32) (Ideal.ofBits .f32 0x00000000#32)

/-- A comparison's bit as a number by reading it as an unsigned integer. -/
def flagNat (c : BitVec 1) : EReal := ((c.toNat : ℝ) : EReal)

/-- The two readings of a bit agree: the word of 1.0 is 1 and the word of 0.0 is 0. -/
theorem flagSel_eq_flagNat (c : BitVec 1) : flagSel c = flagNat c := by
  unfold flagSel flagNat
  rcases BitVec.eq_zero_or_eq_one c with rfl | rfl
  · rw [select_zero, Ideal.ofBits_zero_f32]; simp
  · rw [select_one, Ideal.ofBits_one_f32]; simp

/-- The merged split feature of a token at channel `q`: half the sum of the two halves of
    `relu (x · W + b)`, the row `xrow` of the token against columns `q` and `256 + q` of `W`. -/
def merged (xrow : Fin 256 → EReal) (W : (⟨2, ![256, 512]⟩ : Shape).Idx → EReal) (B : Fin 512 → EReal) (q : Fin 256) : EReal :=
  Ideal.ofBits .f32 0x3F000000#32 *
    (max ((∑ k : Fin 256, xrow k * W (ix2 k (lo q))) + B (lo q)) (Ideal.ofBits .f32 0x00000000#32)
      + max ((∑ k : Fin 256, xrow k * W (ix2 k (hi q))) + B (hi q)) (Ideal.ofBits .f32 0x00000000#32))

/-- The entry with the product grouped as `x · (keep · (1 − split))` and the bits chosen between words. -/
def mixSel (x mg fg ss v : EReal) : EReal :=
  x * ((v * (Ideal.ofBits .f32 0x3F800000#32 - flagSel (Ideal.cmp .olt fg (Ideal.ofBits .f32 0x3E99999A#32)) * v))
        * (Ideal.ofBits .f32 0x3F800000#32 - flagSel (Ideal.cmp .oge ss (Ideal.ofBits .f32 0x3F19999A#32)) * v))
    + mg * (flagSel (Ideal.cmp .oge ss (Ideal.ofBits .f32 0x3F19999A#32)) * v)

/-- The entry with the product grouped as `(x · keep) · (1 − split)` and the bits read as integers. -/
def mixNat (x mg fg ss v : EReal) : EReal :=
  (x * (v * (Ideal.ofBits .f32 0x3F800000#32 - flagNat (Ideal.cmp .olt fg (Ideal.ofBits .f32 0x3E99999A#32)) * v)))
        * (Ideal.ofBits .f32 0x3F800000#32 - flagNat (Ideal.cmp .oge ss (Ideal.ofBits .f32 0x3F19999A#32)) * v)
    + mg * (flagNat (Ideal.cmp .oge ss (Ideal.ofBits .f32 0x3F19999A#32)) * v)

/-- The two groupings are one function on the extended reals. -/
theorem mixSel_eq_mixNat (x mg fg ss v : EReal) : mixSel x mg fg ss v = mixNat x mg fg ss v := by
  unfold mixSel mixNat
  rw [flagSel_eq_flagNat, flagSel_eq_flagNat, ← mul_assoc x]

end Cert.TokenRow

end
-- ==== Proof.KernelBlock.lean ====
/-
  What the kernel body leaves in its output block, read at one entry.

  The body loads a block of 1024 tokens — the embeddings `x0 : [1024, 256]`, and the columns `x1` (foreground score),
  `x2` (small-scale score), `x3` (validity) of shape `[1024, 1]` — with the whole weight `x4 : [256, 512]` and bias
  `x5 : [1, 512]`, and stores one `[1024, 256]` block. At row `p` and channel `q` the stored entry depends on row `p` of
  `x0` only (through the contraction with columns `q` and `256 + q` of the weight), on entry `(p, q)` of `x0`, and on
  the three column entries at row `p`: it is `TokenRow.mixSel` of those.
-/
import proofs.«156257_g52329881534501_cont_9to1_m_872_2_alg».proof.Proof.Gen.KernelIdeal.Frame
import proofs.«156257_g52329881534501_cont_9to1_m_872_2_alg».proof.Proof.RowLaw
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.TokenRow

theorem hz : (![0, 0] : Fin 2 → Nat) = fun _ => 0 := funext fun a => by fin_cases a <;> rfl

/-! ## Layout steps at an entry -/

/-- A `[1024, 1]` column broadcast along the 256 channels reads the column's entry of the row. -/
theorem col_bcast_apply (v : FVec Ideal S1024x1 .f32) (p : Fin 1024) (q : Fin 256) :
    broadcastTo S1024x256 v broadcasts_S1024x1_S1024x256 (ix2 p q) = v (ix2 p 0) :=
  broadcastTo_apply v broadcasts_S1024x1_S1024x256 (ix2 p q) (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])

/-- The `[1, 512]` bias row broadcast down the 1024 rows reads the bias of the column. -/
theorem bias_bcast_apply (b : FVec Ideal S1x512 .f32) (p : Fin 1024) (j : Fin 512) :
    broadcastTo S1024x512 b broadcasts_S1x512_S1024x512 (ix2 p j) = b (ix2 0 j) :=
  broadcastTo_apply b broadcasts_S1x512_S1024x512 (ix2 p j) (ix2 0 j) (fun a => match a with
    | ⟨0, _⟩ => by show 0 = if (1 : Nat) = 1 then 0 else p.val; rw [if_pos rfl]
    | ⟨1, _⟩ => by show j.val = if (512 : Nat) = 1 then 0 else j.val; rw [if_neg (by decide)])

/-- The first half of the 512 projected features, at a channel. -/
theorem slice_lo_apply (z : FVec Ideal S1024x512 .f32) (p : Fin 1024) (q : Fin 256) :
    extractStridedSlice S1024x256 ![0, 0] z slices_S1024x512_o0_0_S1024x256 (ix2 p q) = z (ix2 p (lo q)) :=
  extractStridedSlice_apply ![0, 0] z slices_S1024x512_o0_0_S1024x256 (ix2 p q) (ix2 p (lo q)) (fun a => match a with
    | ⟨0, _⟩ => by show p.val = 0 + p.val; omega
    | ⟨1, _⟩ => by show q.val = 0 + q.val; omega)

/-- The second half, at a channel. -/
theorem slice_hi_apply (z : FVec Ideal S1024x512 .f32) (p : Fin 1024) (q : Fin 256) :
    extractStridedSlice S1024x256 ![0, 256] z slices_S1024x512_o0_256_S1024x256 (ix2 p q) = z (ix2 p (hi q)) :=
  extractStridedSlice_apply ![0, 256] z slices_S1024x512_o0_256_S1024x256 (ix2 p q) (ix2 p (hi q)) (fun a => match a with
    | ⟨0, _⟩ => by show p.val = 0 + p.val; omega
    | ⟨1, _⟩ => by show 256 + q.val = 256 + q.val; omega)

/-! ## The projection: a row of the block against a column of the weight -/

local notation "dotD" => dot_S1024x256_S256x512_S1024x512_1_0_0_1_n_n

theorem lhs_0 (i : S1024x512.Idx) (r : (dotD).contr.Idx) : ((dotD).lhsIdx i r 0).val = (i 0).val := by
  unfold DotDims.lhsIdx
  rw [dif_neg (show ¬(0 : Fin S1024x256.rank) ∈ (dotD).lhsBatch by decide), dif_pos (show (0 : Fin S1024x256.rank) ∈ (dotD).lhsNonContracting by decide)]
  rfl
theorem lhs_1 (i : S1024x512.Idx) (r : (dotD).contr.Idx) : ((dotD).lhsIdx i r 1).val = (r ⟨0, by decide⟩).val :=
  (dotD).lhsIdx_val_of_single rfl i r
theorem rhs_0 (i : S1024x512.Idx) (r : (dotD).contr.Idx) : ((dotD).rhsIdx i r 0).val = (r ⟨0, by decide⟩).val :=
  (dotD).rhsIdx_val_of_single rfl i r
theorem rhs_1 (i : S1024x512.Idx) (r : (dotD).contr.Idx) : ((dotD).rhsIdx i r 1).val = (i 1).val := by
  unfold DotDims.rhsIdx
  rw [dif_neg (show ¬(1 : Fin S256x512.rank) ∈ (dotD).rhsBatch by decide), dif_pos (show (1 : Fin S256x512.rank) ∈ (dotD).rhsNonContracting by decide)]
  rfl

/-- The matrix product into a zero accumulator at `(p, j)`: row `p` of the block against column `j` of the weight. -/
theorem proj_apply (x : FVec Ideal S1024x256 .f32) (W : FVec Ideal S256x512 .f32) (p : Fin 1024) (j : Fin 512) :
    matmul dotD none x W (constant S1024x512 .f32 0x00000000#32) (ix2 p j) = ∑ k : Fin 256, x (ix2 p k) * W (ix2 k j) := by
  simp only [matmul]
  rw [Ideal.matmul_constant_zero_apply, ← Equiv.sum_comp (contrEquiv1 dotD 256 rfl rfl).symm]
  refine Finset.sum_congr rfl fun k _ => ?_
  have hk := contrEquiv1_symm_val dotD 256 rfl rfl k
  have el : (dotD).lhsIdx (ix2 p j) ((contrEquiv1 dotD 256 rfl rfl).symm k) = ix2 p k := funext fun a => Fin.ext (by
    match a with
    | ⟨0, _⟩ => exact lhs_0 _ _
    | ⟨1, _⟩ => exact (lhs_1 _ _).trans hk)
  have er : (dotD).rhsIdx (ix2 p j) ((contrEquiv1 dotD 256 rfl rfl).symm k) = ix2 k j := funext fun a => Fin.ext (by
    match a with
    | ⟨0, _⟩ => exact (rhs_0 _ _).trans hk
    | ⟨1, _⟩ => exact rhs_1 _ _)
  rw [el, er]

/-! ## The payloads at an entry -/

theorem pay2_eq (x : Vec Ideal S1024x256 .f32) : k0_pay2 x = x := by
  unfold k0_pay2; exact shapeCast_self _ _

theorem pay4_eq (v : Vec Ideal S1024x1 .f32) : k0_pay4 v = v := by
  unfold k0_pay4; exact shapeCast_self _ _

/-- The projected feature `relu (x · W + b)` at `(p, j)`. -/
theorem relu_apply (x : FVec Ideal S1024x256 .f32) (W : FVec Ideal S256x512 .f32) (B : FVec Ideal S1x512 .f32) (p : Fin 1024) (j : Fin 512) :
    maximumf (addf (matmul dotD none x W (constant S1024x512 .f32 0x00000000#32)) (broadcastTo S1024x512 B broadcasts_S1x512_S1024x512))
        (broadcast S1024x512 (Scalar.ofBits .f32 0x00000000#32)) (ix2 p j)
      = max ((∑ k : Fin 256, x (ix2 p k) * W (ix2 k j)) + B (ix2 0 j)) (Ideal.ofBits .f32 0x00000000#32) := by
  rw [maximumf_apply, addf_apply, proj_apply, bias_bcast_apply]
  rfl

/-- The merged split feature of row `p` at channel `q`. -/
theorem pay3_apply (x : Vec Ideal S1024x256 .f32) (W : Vec Ideal S256x512 .f32) (B : Vec Ideal S1x512 .f32) (p : Fin 1024) (q : Fin 256) :
    k0_pay3 x W B (ix2 p q) = merged (fun k => x (ix2 p k)) W (fun j => B (ix2 0 j)) q := by
  unfold k0_pay3
  rw [pay2_eq, shapeCast_self]
  refine (mulf_apply _ _ _).trans ?_
  rw [addf_apply, slice_lo_apply, slice_hi_apply, relu_apply, relu_apply]
  rfl

/-- The split weight of row `p`: the flag `ss ≥ 0.6` times the validity. -/
theorem pay5_apply (v ss : Vec Ideal S1024x1 .f32) (p : Fin 1024) :
    k0_pay5 v ss (ix2 p 0) = flagSel (Ideal.cmp .oge (ss (ix2 p 0)) (Ideal.ofBits .f32 0x3F19999A#32)) * v (ix2 p 0) := by
  unfold k0_pay5
  rw [pay4_eq, shapeCast_self]
  rfl

/-- The keep weight of row `p` before the split: validity times one minus the discard weight. -/
theorem pay6_apply (v fg : Vec Ideal S1024x1 .f32) (p : Fin 1024) :
    k0_pay6 v fg (ix2 p 0) = v (ix2 p 0) * (Ideal.ofBits .f32 0x3F800000#32
      - flagSel (Ideal.cmp .olt (fg (ix2 p 0)) (Ideal.ofBits .f32 0x3E99999A#32)) * v (ix2 p 0)) := by
  unfold k0_pay6
  rw [pay4_eq, shapeCast_self]
  rfl

/-- The stored value at `(p, q)` from the four intermediate values. -/
theorem pay1_apply (v1 v14 : FVec Ideal S1024x256 .f32) (v32 v35 : FVec Ideal S1024x1 .f32) (p : Fin 1024) (q : Fin 256) :
    k0_pay1 v1 v14 v32 v35 (Scalar.ofBits .f32 0x3F800000#32) (ix2 p q)
      = v1 (ix2 p q) * (v35 (ix2 p 0) * (Ideal.ofBits .f32 0x3F800000#32 - v32 (ix2 p 0))) + v14 (ix2 p q) * v32 (ix2 p 0) := by
  unfold k0_pay1
  show v1 (ix2 p q) * broadcastTo S1024x256 _ broadcasts_S1024x1_S1024x256 (ix2 p q) + v14 (ix2 p q) * broadcastTo S1024x256 v32 broadcasts_S1024x1_S1024x256 (ix2 p q) = _
  rw [col_bcast_apply, col_bcast_apply]
  rfl

/-! ## The block -/

/-- THE OUTPUT BLOCK AT `(p, q)`: one token's entry, from row `p` of the loaded blocks. -/
theorem out_apply (x0 : Vec Ideal S1024x256 .f32) (x1 x2 x3 : Vec Ideal S1024x1 .f32) (x4 : Vec Ideal S256x512 .f32) (x5 : Vec Ideal S1x512 .f32)
    (p : Fin 1024) (q : Fin 256) :
    out0_6 x0 x1 x2 x3 x4 x5 (ix2 p q)
      = mixSel (x0 (ix2 p q)) (merged (fun k => x0 (ix2 p k)) x4 (fun j => x5 (ix2 0 j)) q) (x1 (ix2 p 0)) (x2 (ix2 p 0)) (x3 (ix2 p 0)) := by
  unfold out0_6
  rw [View.canon_unit_zero hz]
  simp only [View.ld_unit_zero (S := S1024x256) hz, View.ld_unit_zero (S := S256x512) hz, View.ld_unit_zero (S := S1x512) hz, View.ld_unit_zero (S := S1024x1) hz]
  rw [pay1_apply, pay2_eq, pay3_apply, pay5_apply, pay6_apply]
  rfl

end Cert.KernelIdeal.Block

end
-- ==== Proof.KernelArray.lean ====
/-
  The kernel's result array, as one function of the argument arrays.

  The region runs over 32 grid points; point `t` stages rows `1024 t … 1024 t + 1023` of the flattened token arrays
  (`[32768, 256]` embeddings, `[32768, 1]` scores and validity), the whole weight and bias, and writes back rows
  `1024 t …` of the `[32768, 256]` output. Every written block is the restriction of ONE function of the flattened
  arrays (`tokenArr`: row `r`, channel `q` ↦ the token entry of `TokenRow.mixSel`), the 32 blocks cover the output,
  so the output array ends at that function. The flattened arrays are row-major reshapes of the arguments (token
  `(n, b)` is row `4 n + b`), the validity column is the negated, transposed padding mask read as a number, and the
  result is the output reshaped back to `[8192, 4, 256]`.
-/
import proofs.«156257_g52329881534501_cont_9to1_m_872_2_alg».proof.Proof.Gen.KernelIdeal.Frame
import proofs.«156257_g52329881534501_cont_9to1_m_872_2_alg».proof.Proof.KernelBlock
import Idealize.ShloMosaic.Lib.Pipeline.Value
import Idealize.ShloMosaic.Lib.StableHlo.Run

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx Cert.TokenRow
open Idealize.ShloMosaic.Pipeline (Dat)

/-! ## The output as one function of the flattened arrays -/

/-- Row `r`, channel `q` of the output from the flattened arrays: the token entry of row `r`. -/
def tokenAt (X : S32768x256.Idx → EReal) (FG SS VL : S32768x1.Idx → EReal) (W : S256x512.Idx → EReal) (B : S1x512.Idx → EReal)
    (r : Fin 32768) (q : Fin 256) : EReal :=
  mixSel (X (ix2 r q)) (merged (fun k => X (ix2 r k)) W (fun j => B (ix2 0 j)) q) (FG (ix2 r 0)) (SS (ix2 r 0)) (VL (ix2 r 0))

/-- The whole `[32768, 256]` output. -/
def tokenArr (X : S32768x256.Idx → EReal) (FG SS VL : S32768x1.Idx → EReal) (W : S256x512.Idx → EReal) (B : S1x512.Idx → EReal) :
    S32768x256.Idx → EReal := fun i => tokenAt X FG SS VL W B (i 0) (i 1)

/-- Row `p` of the block of grid point `T` is row `1024 T + p` of the array. -/
abbrev rowOf (T : Nat) (hT : T < 32) (p : Fin 1024) : Fin 32768 := ⟨T * 1024 + p.val, by have := p.isLt; omega⟩

/-- A body's output block, from input blocks that are rows `1024 T …` of the flattened arrays, is rows `1024 T …` of
    `tokenArr`. -/
theorem block_eq (X : S32768x256.Idx → EReal) (FG SS VL : S32768x1.Idx → EReal) (W : S256x512.Idx → EReal) (B : S1x512.Idx → EReal)
    (x0 : Vec Ideal S1024x256 .f32) (x1 x2 x3 : Vec Ideal S1024x1 .f32) (x4 : Vec Ideal S256x512 .f32) (x5 : Vec Ideal S1x512 .f32)
    (T : Nat) (hT : T < 32)
    (h0 : ∀ (p : Fin 1024) (k : Fin 256), x0 (ix2 p k) = X (ix2 (rowOf T hT p) k))
    (h1 : ∀ p : Fin 1024, x1 (ix2 p 0) = FG (ix2 (rowOf T hT p) 0))
    (h2 : ∀ p : Fin 1024, x2 (ix2 p 0) = SS (ix2 (rowOf T hT p) 0))
    (h3 : ∀ p : Fin 1024, x3 (ix2 p 0) = VL (ix2 (rowOf T hT p) 0))
    (h4 : ∀ (k : Fin 256) (j : Fin 512), x4 (ix2 k j) = W (ix2 k j))
    (h5 : ∀ j : Fin 512, x5 (ix2 0 j) = B (ix2 0 j))
    (p : Fin 1024) (q : Fin 256) :
    out0_6 x0 x1 x2 x3 x4 x5 (ix2 p q) = tokenArr X FG SS VL W B (ix2 (rowOf T hT p) q) := by
  rw [Block.out_apply]
  show _ = tokenAt X FG SS VL W B (rowOf T hT p) q
  unfold tokenAt merged
  simp only [h0, h1, h2, h3, h4, h5]

variable (m : (ℓ : Loc nD τ sig) → Buf (Elt Ideal) ℓ) (ρ : Dev nD → PrngReg)

/-! ## The index maps, decided over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 32 := by have := t.isLt; have hN : cfg0.N = 32 := N_0; omega

/-! ## What point `t` writes back -/

/-- The embeddings' block at point `t` is rows `1024 t …` of the flattened embeddings. -/
theorem iblk0 (c : Dev nD) (t : Fin cfg0.N) (p : Fin 1024) (k : Fin 256) :
    iblk m c 0 t (ix2 p k) = V m c main_v0 (ix2 (rowOf t.val (t_lt t) p) k) := by
  obtain ⟨e0, e1, -⟩ := idx_facts t
  show V m c main_v0 (((cfg0.win 0).blk t).view.emb (ix2 p k)) = V m c main_v0 _
  refine congrArg _ (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 256 + 1 * k.val = k.val; rw [e1]; omega

/-- The foreground scores' block at point `t`. -/
theorem iblk1 (c : Dev nD) (t : Fin cfg0.N) (p : Fin 1024) :
    iblk m c 1 t (ix2 p 0) = V m c main_v1 (ix2 (rowOf t.val (t_lt t) p) 0) := by
  obtain ⟨-, -, e0, e1, -⟩ := idx_facts t
  show V m c main_v1 (((cfg0.win 1).blk t).view.emb (ix2 p 0)) = V m c main_v1 _
  refine congrArg _ (funext fun a => Fin.ext ?_)
  match a with
  | ⟨0, _⟩ => show win0_1.index t (0 : Fin 2) * 1024 + 1 * p.val = t.val * 1024 + p.val; rw [e0]; omega
  | ⟨1, _⟩ => show win0_1.index t (1 : Fin 2) * 1 + 1 * 0 = 0; rw [e1]

/-- The small-scale scores' block at point `t`. -/
theorem iblk2 (c : Dev nD) (t : Fin cfg0.N) (p : Fin 1024) :
    iblk m c 2 t (ix2 p 0) = V m c main_v2 (ix2 (rowOf t.val (t_lt t) p) 0) := by
  obtain ⟨-, -, -, -, e0, e1, -⟩ := idx_facts t
  show V m c main_v2 (((cfg0.win 2).blk t).view.emb (ix2 p 0)) = V m c main_v2 _
  refine congrArg _ (funext fun a => Fin.ext ?_)
  match a with
  | ⟨0, _⟩ => show win0_2.index t (0 : Fin 2) * 1024 + 1 * p.val = t.val * 1024 + p.val; rw [e0]; omega
  | ⟨1, _⟩ => show win0_2.index t (1 : Fin 2) * 1 + 1 * 0 = 0; rw [e1]

/-- The validity column's block at point `t`. -/
theorem iblk3 (c : Dev nD) (t : Fin cfg0.N) (p : Fin 1024) :
    iblk m c 3 t (ix2 p 0) = V m c main_v6 (ix2 (rowOf t.val (t_lt t) p) 0) := by
  obtain ⟨-, -, -, -, -, -, e0, e1, -⟩ := idx_facts t
  show V m c main_v6 (((cfg0.win 3).blk t).view.emb (ix2 p 0)) = V m c main_v6 _
  refine congrArg _ (funext fun a => Fin.ext ?_)
  match a with
  | ⟨0, _⟩ => show win0_3.index t (0 : Fin 2) * 1024 + 1 * p.val = t.val * 1024 + p.val; rw [e0]; omega
  | ⟨1, _⟩ => show win0_3.index t (1 : Fin 2) * 1 + 1 * 0 = 0; rw [e1]

/-- The weight is staged whole at every point. -/
theorem iblk4 (c : Dev nD) (t : Fin cfg0.N) (k : Fin 256) (j : Fin 512) :
    iblk m c 4 t (ix2 k j) = V m c main_arg4 (ix2 k j) := by
  obtain ⟨-, -, -, -, -, -, -, -, e0, e1, -⟩ := idx_facts t
  show V m c main_arg4 (((cfg0.win 4).blk t).view.emb (ix2 k j)) = V m c main_arg4 _
  refine congrArg _ (funext fun a => Fin.ext ?_)
  match a with
  | ⟨0, _⟩ => show win0_4.index t (0 : Fin 2) * 256 + 1 * k.val = k.val; rw [e0]; omega
  | ⟨1, _⟩ => show win0_4.index t (1 : Fin 2) * 512 + 1 * j.val = j.val; rw [e1]; omega

/-- The bias row is staged whole at every point. -/
theorem iblk5 (c : Dev nD) (t : Fin cfg0.N) (j : Fin 512) :
    iblk m c 5 t (ix2 0 j) = V m c main_v7 (ix2 0 j) := by
  obtain ⟨-, -, -, -, -, -, -, -, -, -, e0, e1, -⟩ := idx_facts t
  show V m c main_v7 (((cfg0.win 5).blk t).view.emb (ix2 0 j)) = V m c main_v7 _
  refine congrArg _ (funext fun a => Fin.ext ?_)
  match a with
  | ⟨0, _⟩ => show win0_5.index t (0 : Fin 2) * 1 + 1 * 0 = 0; rw [e0]
  | ⟨1, _⟩ => show win0_5.index t (1 : Fin 2) * 512 + 1 * j.val = j.val; rw [e1]; omega

/-- The flattened arrays as the region finds them. -/
abbrev found (c : Dev nD) : S32768x256.Idx → EReal :=
  tokenArr (V m c main_v0) (V m c main_v1) (V m c main_v2) (V m c main_v6) (V m c main_arg4) (V m c main_v7)

/-- WHAT POINT `t` WRITES BACK is block `t` of `tokenArr` of the arrays the region finds. -/
theorem flushed_eq (c : Dev nD) (t : Fin cfg0.N) :
    (dats m 0 c).flushed 6 t = ((cfg0.win 6).blk t).view.read (Elt Ideal) (found m c) := by
  show (cfg0.win 6).cut (grid0.coords t) ((dats m 0 c).after 6 t) = _
  rw [after0_6]
  funext y
  obtain ⟨p, q, rfl⟩ : ∃ (p : Fin 1024) (q : Fin 256), y = ix2 p q := ⟨y 0, y 1, eq_ix2 y⟩
  obtain ⟨-, -, -, -, -, -, -, -, -, -, -, -, e0, e1⟩ := idx_facts t
  refine (block_eq (V m c main_v0) (V m c main_v1) (V m c main_v2) (V m c main_v6) (V m c main_arg4) (V m c main_v7)
    (iblk m c 0 t) (iblk m c 1 t) (iblk m c 2 t) (iblk m c 3 t) (iblk m c 4 t) (iblk m c 5 t) t.val (t_lt t)
    (iblk0 m c t) (iblk1 m c t) (iblk2 m c t) (iblk3 m c t) (iblk4 m c t) (iblk5 m c t) p q).trans ?_
  show found m c _ = found m c (((cfg0.win 6).blk t).view.emb (ix2 p q))
  refine congrArg _ (funext fun a => Fin.ext ?_)
  match a with
  | ⟨0, _⟩ => show t.val * 1024 + p.val = win0_6.index t (0 : Fin 2) * 1024 + 1 * p.val; rw [e0]; omega
  | ⟨1, _⟩ => show q.val = win0_6.index t (1 : Fin 2) * 256 + 1 * q.val; rw [e1]; omega

/-! ## The 32 blocks cover the output -/

theorem mem_blk (t : Fin cfg0.N) (i : S32768x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v8).slice (win0_6.rect t)).set ↔ _
  rw [View.set_slice_whole, Rect.mem_set_unit]
  exact Iff.rfl

/-- Row `r` of the output is in the block of point `r / 1024`. -/
theorem cover (i : S32768x256.Idx) : ∃ t : Fin cfg0.N, (cfg0.win 6).flush t = true ∧ i ∈ ((cfg0.win 6).blk t).view.set := by
  have hi0 : (i 0).val < 32768 := (i 0).isLt
  have hi1 : (i 1).val < 256 := (i 1).isLt
  have hN : cfg0.N = 32 := N_0
  have hlt : (i 0).val / 1024 < cfg0.N := by rw [hN]; omega
  obtain ⟨-, -, -, -, -, -, -, -, -, -, -, -, e0, e1⟩ := idx_facts ⟨(i 0).val / 1024, hlt⟩
  have e0' : win0_6.index ⟨(i 0).val / 1024, hlt⟩ (0 : Fin 2) = (i 0).val / 1024 := e0
  refine ⟨⟨(i 0).val / 1024, hlt⟩, flush0_6 _, ?_⟩
  rw [mem_blk]
  intro a
  match a with
  | ⟨0, _⟩ =>
    show win0_6.index ⟨(i 0).val / 1024, hlt⟩ (0 : Fin 2) * 1024 ≤ (i 0).val ∧ (i 0).val < win0_6.index ⟨(i 0).val / 1024, hlt⟩ (0 : Fin 2) * 1024 + 1024
    rw [e0']; omega
  | ⟨1, _⟩ =>
    show win0_6.index ⟨(i 0).val / 1024, hlt⟩ (1 : Fin 2) * 256 ≤ (i 1).val ∧ (i 1).val < win0_6.index ⟨(i 0).val / 1024, hlt⟩ (1 : Fin 2) * 256 + 256
    rw [e1]; omega

/-- THE OUTPUT ARRAY after the region. -/
theorem final6 (c : Dev nD) : (dats m 0 c).arrAt 6 cfg0.N = found m c :=
  (dats m 0 c).arrAt_eq_of_cover 6 (found m c) (fun t _ => flushed_eq m c t) cover

/-! ## The arrays the region finds, from the arguments -/

theorem V_v0 (c : Dev nD) : (V m c main_v0 : S32768x256.Idx → EReal)
    = shapeCast S32768x256 (m ((c : Thread nD τ).loc main_arg0)) shapeCasts_S8192x4x256_S32768x256 := by
  show StableHlo.after hostOps0 (fun b => m (c, b)) (Proc.devRef .tc main_v0) = _
  after_results; rfl

theorem V_v1 (c : Dev nD) : (V m c main_v1 : S32768x1.Idx → EReal)
    = shapeCast S32768x1 (m ((c : Thread nD τ).loc main_arg1)) shapeCasts_S8192x4_S32768x1 := by
  show StableHlo.after hostOps0 (fun b => m (c, b)) (Proc.devRef .tc main_v1) = _
  after_results; rfl

theorem V_v2 (c : Dev nD) : (V m c main_v2 : S32768x1.Idx → EReal)
    = shapeCast S32768x1 (m ((c : Thread nD τ).loc main_arg2)) shapeCasts_S8192x4_S32768x1 := by
  show StableHlo.after hostOps0 (fun b => m (c, b)) (Proc.devRef .tc main_v2) = _
  after_results; rfl

theorem V_v6 (c : Dev nD) : (V m c main_v6 : S32768x1.Idx → EReal)
    = uitofp (F := Ideal) .f32 (shapeCast S32768x1 (transpose S8192x4 [1, 0] (noti (m ((c : Thread nD τ).loc main_arg3))) transposes_S4x8192_S8192x4_1_0) shapeCasts_S8192x4_S32768x1) := by
  show StableHlo.after hostOps0 (fun b => m (c, b)) (Proc.devRef .tc main_v6) = _
  after_results; rfl

theorem V_v7 (c : Dev nD) : (V m c main_v7 : S1x512.Idx → EReal)
    = shapeCast S1x512 (m ((c : Thread nD τ).loc main_arg5)) shapeCasts_S512_S1x512 := by
  show StableHlo.after hostOps0 (fun b => m (c, b)) (Proc.devRef .tc main_v7) = _
  after_results; rfl

/-! ## The result: the output reshaped -/

/-- The one host operation after the region reshapes the output array. -/
theorem tail_v9 (c : Dev nD) :
    Pipeline.afterTail₀ cfgs (dats m) 0 (V0 m) [hostOps1] c main_v9
      = shapeCast S8192x4x256 (found m c) shapeCasts_S32768x256_S8192x4x256 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.tc.devRef main_v8) = found m c :=
    (Pipeline.withArrays_arr spec0 launch0.win.arr_inj c _ _ 6).trans (final6 m c)
  rw [e]
  rfl

end Cert.KernelIdeal.Arr

end
-- ==== Proof.TokenSpec.lean ====
/-
  The specification: the adapted tokens as ONE function of the six argument arrays, entry by entry.

  For token `(n, b)` and channel `q`: the embedding entry `x[n, b, q]`, the merged split feature of the token's row
  `x[n, b, ·]` against the weight and bias, the scores `fg[n, b]`, `ss[n, b]`, and the validity — the padding mask
  `mask[b, n]` negated and read as a number — combined by `TokenRow.mixNat`.
-/
import proofs.«156257_g52329881534501_cont_9to1_m_872_2_alg».proof.Proof.RowLaw

noncomputable section

open scoped BigOperators

namespace Cert.TokenRow

open Idealize.ShloMosaic Idealize.ShloMosaic.ValueIdx

/-- The result at token `(n, b)`, channel `q`. -/
def tokenOut (x0 : (⟨3, ![8192, 4, 256]⟩ : Shape).Idx → EReal) (x1 x2 : (⟨2, ![8192, 4]⟩ : Shape).Idx → EReal)
    (x3 : (⟨2, ![4, 8192]⟩ : Shape).Idx → BitVec 1) (x4 : (⟨2, ![256, 512]⟩ : Shape).Idx → EReal)
    (x5 : (⟨1, ![512]⟩ : Shape).Idx → EReal) (n : Fin 8192) (b : Fin 4) (q : Fin 256) : EReal :=
  mixNat (x0 (ix3 n b q)) (merged (fun k => x0 (ix3 n b k)) x4 (fun j => x5 (ix1 j)) q)
    (x1 (ix2 n b)) (x2 (ix2 n b)) (flagNat (~~~ x3 (ix2 b n)))

/-- The whole `[8192, 4, 256]` result. -/
def tokensOut (x0 : (⟨3, ![8192, 4, 256]⟩ : Shape).Idx → EReal) (x1 x2 : (⟨2, ![8192, 4]⟩ : Shape).Idx → EReal)
    (x3 : (⟨2, ![4, 8192]⟩ : Shape).Idx → BitVec 1) (x4 : (⟨2, ![256, 512]⟩ : Shape).Idx → EReal)
    (x5 : (⟨1, ![512]⟩ : Shape).Idx → EReal) : (⟨3, ![8192, 4, 256]⟩ : Shape).Idx → EReal :=
  fun i => tokenOut x0 x1 x2 x3 x4 x5 (i 0) (i 1) (i 2)

end Cert.TokenRow

end
-- ==== Proof.KernelResult.lean ====
/-
  The kernel's result is the specification.

  The result is the `[32768, 256]` output of the region reshaped to `[8192, 4, 256]`; token `(n, b)` is row `4 n + b`
  of every flattened array, so entry `(n, b, q)` of the result is row `4 n + b`, channel `q` of the output, whose
  inputs — row `4 n + b` of the flattened embeddings, scores and validity — are the arguments at `(n, b)`. The product
  grouping and the reading of a comparison's bit are then the scalar law `TokenRow.mixSel_eq_mixNat`.
-/
import proofs.«156257_g52329881534501_cont_9to1_m_872_2_alg».proof.Proof.KernelArray
import proofs.«156257_g52329881534501_cont_9to1_m_872_2_alg».proof.Proof.TokenSpec

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx Cert.TokenRow

/-! ## Row-major reshapes at an index -/

/-- Token `(n, b)` is row `4 n + b` of the flattened arrays. -/
abbrev tokRow (n : Fin 8192) (b : Fin 4) : Fin 32768 := ⟨n.val * 4 + b.val, by have := n.isLt; have := b.isLt; omega⟩

section Reshape
variable {α : Type}

theorem flat3_apply (x : S8192x4x256.Idx → α) (n : Fin 8192) (b : Fin 4) (k : Fin 256) :
    shapeCast S32768x256 x shapeCasts_S8192x4x256_S32768x256 (ix2 (tokRow n b) k) = x (ix3 n b k) :=
  shapeCast_apply x shapeCasts_S8192x4x256_S32768x256 (ix2 (tokRow n b) k) (ix3 n b k) (by
    rw [Shape.rowMajor_val_three, Shape.rowMajor_val_two]; rfl)

theorem flat2_apply (x : S8192x4.Idx → α) (n : Fin 8192) (b : Fin 4) :
    shapeCast S32768x1 x shapeCasts_S8192x4_S32768x1 (ix2 (tokRow n b) 0) = x (ix2 n b) :=
  shapeCast_apply x shapeCasts_S8192x4_S32768x1 (ix2 (tokRow n b) 0) (ix2 n b) (by
    rw [Shape.rowMajor_val_two, Shape.rowMajor_val_two]
    show n.val * 4 + b.val = (n.val * 4 + b.val) * 1 + 0
    omega)

theorem unflat_apply (y : S32768x256.Idx → α) (n : Fin 8192) (b : Fin 4) (q : Fin 256) :
    shapeCast S8192x4x256 y shapeCasts_S32768x256_S8192x4x256 (ix3 n b q) = y (ix2 (tokRow n b) q) :=
  shapeCast_apply y shapeCasts_S32768x256_S8192x4x256 (ix3 n b q) (ix2 (tokRow n b) q) (by
    rw [Shape.rowMajor_val_three, Shape.rowMajor_val_two]; rfl)

theorem bias_apply (x : S512.Idx → α) (j : Fin 512) :
    shapeCast S1x512 x shapeCasts_S512_S1x512 (ix2 0 j) = x (ix1 j) :=
  shapeCast_apply x shapeCasts_S512_S1x512 (ix2 0 j) (ix1 j) (by
    rw [Shape.rowMajor_val_one, Shape.rowMajor_val_two]
    show j.val = 0 * 512 + j.val
    omega)

theorem swap_apply (y : S4x8192.Idx → α) (n : Fin 8192) (b : Fin 4) :
    transpose S8192x4 [1, 0] y transposes_S4x8192_S8192x4_1_0 (ix2 n b) = y (ix2 b n) :=
  transpose_apply [1, 0] y transposes_S4x8192_S8192x4_1_0 (ix2 n b) (ix2 b n) (fun a => match a with
    | ⟨0, _⟩ => rfl
    | ⟨1, _⟩ => rfl)

end Reshape

variable (m : (ℓ : Loc nD τ sig) → Buf (Elt Ideal) ℓ) (ρ : Dev nD → PrngReg)

/-! ## The result at a token -/

/-- The validity column at row `4 n + b`: the mask at `(b, n)`, negated, as a number. -/
theorem valid_apply (c : Dev nD) (n : Fin 8192) (b : Fin 4) :
    V m c main_v6 (ix2 (tokRow n b) 0) = flagNat (~~~ (m ((c : Thread nD τ).loc main_arg3)) (ix2 b n)) := by
  rw [V_v6]
  show FloatOps.uitofp (F := Ideal) .f32 (shapeCast S32768x1 (transpose S8192x4 [1, 0] (noti (m ((c : Thread nD τ).loc main_arg3))) transposes_S4x8192_S8192x4_1_0) shapeCasts_S8192x4_S32768x1 (ix2 (tokRow n b) 0)) = _
  rw [flat2_apply, swap_apply]
  rfl

/-- THE KERNEL'S RESULT ARRAY is the specification of the argument arrays. -/
theorem result_eq (c : Dev nD) :
    shapeCast S8192x4x256 (found m c) shapeCasts_S32768x256_S8192x4x256
      = tokensOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨n, b, q, rfl⟩ : ∃ (n : Fin 8192) (b : Fin 4) (q : Fin 256), i = ix3 n b q := ⟨i 0, i 1, i 2, eq_ix3 i⟩
  rw [unflat_apply]
  show tokenAt (V m c main_v0) (V m c main_v1) (V m c main_v2) (V m c main_v6) (V m c main_arg4) (V m c main_v7) (tokRow n b) q
    = tokenOut _ _ _ _ _ _ n b q
  unfold tokenAt tokenOut
  rw [valid_apply, V_v0, V_v1, V_v2, V_v7, V_main_arg4, flat3_apply, flat2_apply, flat2_apply, mixSel_eq_mixNat]
  simp only [flat3_apply, bias_apply]

/-! ## The run -/

/-- Every execution ends with the result array at the specification. -/
theorem run_value : θ_run defs (onTc (τ := τ) (main (F := Ideal))) ⟨m, fun _ => 0, ρ⟩ (fun r => ∀ c : Dev nD,
    r.2.mem ((c.tc : Thread nD τ).loc main_v9)
      = tokensOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))) :=
  (θ_run defs _ _).mono (fun r h c =>
      (((h c).2 main_v9 (Pipeline.mem_restRefs_of main_v9 (by decide) (by decide))).trans (tail_v9 m c)).trans (result_eq m c))
    (run_main m ρ)

end Cert.KernelIdeal.Arr

end
-- ==== Proof.RefArray.lean ====
/-
  The reference's result is the specification.

  The reference computes validity, the discard and split weights and the keep weight on `[8192, 4]`, the projection
  `relu (x · W + b)` on `[8192, 4, 512]`, and combines them on `[8192, 4, 256]` after broadcasting the per-token
  weights along the channels. Read at token `(n, b)` and channel `q`, stage by stage, it is `TokenRow.tokenOut`.
-/
import proofs.«156257_g52329881534501_cont_9to1_m_872_2_alg».proof.Proof.Gen.ReferenceIdeal.Read
import proofs.«156257_g52329881534501_cont_9to1_m_872_2_alg».proof.Proof.TokenSpec

noncomputable section

open scoped BigOperators

namespace Cert.ReferenceIdeal.RefValue

open Cert.ReferenceIdeal Cert.ReferenceIdeal.Gen Cert.ReferenceIdeal.Read Idealize.ShloMosaic Idealize.ShloMosaic.ValueIdx Cert.TokenRow

variable (x0 : (⟨S8192x4x256, .f32⟩ : BufTy).Contents (Elt Ideal)) (x1 x2 : (⟨S8192x4, .f32⟩ : BufTy).Contents (Elt Ideal))
  (x3 : (⟨S4x8192, .i1⟩ : BufTy).Contents (Elt Ideal)) (x4 : (⟨S256x512, .f32⟩ : BufTy).Contents (Elt Ideal))
  (x5 : (⟨S512, .f32⟩ : BufTy).Contents (Elt Ideal))

/-- Validity of token `(n, b)`: the mask at `(b, n)`, negated, as a number. -/
theorem valid_apply (n : Fin 8192) (b : Fin 4) :
    val_main_v2 (F := Ideal) x3 (ix2 n b) = flagNat (~~~ x3 (ix2 b n)) := by
  rw [val_main_v2_apply, val_main_v1_apply, val_main_v0_apply]
  have e : idx_main_v1 (ix2 n b) = ix2 b n := funext fun a => by
    match a with | ⟨0, _⟩ => rfl | ⟨1, _⟩ => rfl
  rw [e]; rfl

/-- The discard weight of token `(n, b)`. -/
theorem discard_apply (n : Fin 8192) (b : Fin 4) :
    val_main_v6 (F := Ideal) x1 x3 (ix2 n b)
      = flagNat (Ideal.cmp .olt (x1 (ix2 n b)) (Ideal.ofBits .f32 0x3E99999A#32)) * flagNat (~~~ x3 (ix2 b n)) := by
  rw [val_main_v6_apply, valid_apply, val_main_v5_apply, val_main_v4_apply, val_main_v3_apply, val_main_cst_apply]
  rfl

/-- The split weight of token `(n, b)`. -/
theorem split_apply (n : Fin 8192) (b : Fin 4) :
    val_main_v10 (F := Ideal) x2 x3 (ix2 n b)
      = flagNat (Ideal.cmp .oge (x2 (ix2 n b)) (Ideal.ofBits .f32 0x3F19999A#32)) * flagNat (~~~ x3 (ix2 b n)) := by
  rw [val_main_v10_apply, valid_apply, val_main_v9_apply, val_main_v8_apply, val_main_v7_apply, val_main_cst_0_apply]
  rfl

/-- The keep weight of token `(n, b)` before the split. -/
theorem keep_apply (n : Fin 8192) (b : Fin 4) :
    val_main_v20 (F := Ideal) x1 x3 (ix2 n b)
      = flagNat (~~~ x3 (ix2 b n)) * (Ideal.ofBits .f32 0x3F800000#32
        - flagNat (Ideal.cmp .olt (x1 (ix2 n b)) (Ideal.ofBits .f32 0x3E99999A#32)) * flagNat (~~~ x3 (ix2 b n))) := by
  rw [val_main_v20_apply, valid_apply, val_main_v19_apply, discard_apply, val_main_v18_apply, val_main_cst_1_apply]
  rfl

/-- The projected feature `relu (x · W + b)` of token `(n, b)` at column `j`. -/
theorem relu_apply (n : Fin 8192) (b : Fin 4) (j : Fin 512) :
    val_main_v15 (F := Ideal) x0 x4 x5 (ix3 n b j)
      = max ((∑ k : Fin 256, x0 (ix3 n b k) * x4 (ix2 k j)) + x5 (ix1 j)) (Ideal.ofBits .f32 0x00000000#32) := by
  rw [val_main_v15_apply, val_main_v14_apply, val_main_v11_apply, val_main_v13_apply, val_main_v12_apply,
    val_main_call0_v0_apply, val_main_call0_cst_apply]
  have el : ∀ k : Fin 256, lidx_main_v11 (ix3 n b j) k = ix3 n b k := fun k => funext fun a => by
    match a with | ⟨0, _⟩ => rfl | ⟨1, _⟩ => rfl | ⟨2, _⟩ => rfl
  have er : ∀ k : Fin 256, ridx_main_v11 (ix3 n b j) k = ix2 k j := fun k => funext fun a => by
    match a with | ⟨0, _⟩ => rfl | ⟨1, _⟩ => rfl
  have eb : idx_main_v12 (idx_main_v13 (ix3 n b j)) = ix1 j := funext fun a => by
    match a with | ⟨0, _⟩ => rfl
  simp only [el, er, eb]
  rfl

/-- The merged split feature of token `(n, b)` at channel `q`. -/
theorem merged_apply (n : Fin 8192) (b : Fin 4) (q : Fin 256) :
    val_main_v31 (F := Ideal) x0 x4 x5 (ix3 n b q) = merged (fun k => x0 (ix3 n b k)) x4 (fun j => x5 (ix1 j)) q := by
  rw [val_main_v31_apply, val_main_v30_apply, val_main_cst_3_apply, val_main_v29_apply, val_main_v16_apply, val_main_v17_apply]
  have e16 : idx_main_v16 (ix3 n b q) = ix3 n b (lo q) := funext fun a => by
    match a with | ⟨0, _⟩ => rfl | ⟨1, _⟩ => rfl | ⟨2, _⟩ => rfl
  have e17 : idx_main_v17 (ix3 n b q) = ix3 n b (hi q) := funext fun a => by
    match a with | ⟨0, _⟩ => rfl | ⟨1, _⟩ => rfl | ⟨2, _⟩ => rfl
  rw [e16, e17, relu_apply, relu_apply]
  rfl

/-- THE REFERENCE'S RESULT at token `(n, b)`, channel `q`. -/
theorem result_apply (n : Fin 8192) (b : Fin 4) (q : Fin 256) :
    val_main_v34 (F := Ideal) x0 x1 x2 x3 x4 x5 (ix3 n b q) = tokenOut x0 x1 x2 x3 x4 x5 n b q := by
  rw [val_main_v34_apply, val_main_v28_apply, val_main_v24_apply, val_main_v23_apply, val_main_v22_apply,
    val_main_v27_apply, val_main_v26_apply, val_main_v25_apply, val_main_cst_2_apply, val_main_v21_apply,
    val_main_v33_apply, val_main_v32_apply, val_main_v21_apply, merged_apply]
  have e23 : idx_main_v22 (idx_main_v23 (ix3 n b q)) = ix2 n b := funext fun a => by
    match a with | ⟨0, _⟩ => rfl | ⟨1, _⟩ => rfl
  have e27 : idx_main_v21 (idx_main_v27 (ix3 n b q)) = ix2 n b := funext fun a => by
    match a with | ⟨0, _⟩ => rfl | ⟨1, _⟩ => rfl
  rw [e23, e27, keep_apply, split_apply]
  rfl

/-- The reference's result array is the specification. -/
theorem result_eq : val_main_v34 (F := Ideal) x0 x1 x2 x3 x4 x5 = tokensOut x0 x1 x2 x3 x4 x5 := by
  funext i
  obtain ⟨n, b, q, rfl⟩ : ∃ (n : Fin 8192) (b : Fin 4) (q : Fin 256), i = ix3 n b q := ⟨i 0, i 1, i 2, eq_ix3 i⟩
  exact result_apply x0 x1 x2 x3 x4 x5 n b q

end Cert.ReferenceIdeal.RefValue

end
-- ==== Proof.LibRunAnd.lean ====
/-
  Two facts about every execution of one program from one state hold together.

  `θ_run defs p s Q` says: every weakly fair execution of `p` from `s` terminates, without a fault, in a state
  satisfying `Q`. Termination and absence of faults do not mention `Q`, and a final state reached satisfies both posts
  if it satisfies each: so two such statements about the same program and state give the statement for the conjunction.
-/
import Idealize.ShloMosaic.Machine.Run

namespace Cert.RunAnd

open Idealize.ShloMosaic Idealize.SL.Sem

variable {nD : Nat} {τ : Topo} {sig : RefSig} {Val : EltTy → Type} {Λ : Labels}

/-- If every weakly fair execution of `p` from `s` ends in `Q`, and every one ends in `Q'`, then every one ends in
    `Q ∧ Q'`. General: any mesh, signature, value type and body table. -/
theorem θ_run_and (defs : Defs nD τ sig Val Λ) (p : (c : Thread nD τ) → Prog (TpuEff nD τ sig Val Λ c.2) PUnit)
    (s : MemSt nD τ sig Val) {Q Q' : PUnit × MemSt nD τ sig Val → Prop}
    (h : θ_run defs p s Q) (h' : θ_run defs p s Q') : θ_run defs p s (fun r => Q r ∧ Q' r) := by
  have h1 : MeshRun defs (fun m' => Q (⟨⟩, m')) (load p s) := h
  have h2 : MeshRun defs (fun m' => Q' (⟨⟩, m')) (load p s) := h'
  exact (⟨fun t ht hf => ⟨h1.post t ht hf, h2.post t ht hf⟩, h1.progress, h1.fair⟩ :
    MeshRun defs (fun m' => Q (⟨⟩, m') ∧ Q' (⟨⟩, m')) (load p s))

end Cert.RunAnd
-- ==== Proof.lean ====
/-
  Token filtering and adaption: a fused kernel against its plain reference, equal on the extended reals.

  Both programs take token embeddings `x : [8192, 4, 256]`, a foreground score and a small-scale score per token, a
  padding mask `[4, 8192]`, and the weight `[256, 512]` and bias `[512]` of a linear layer. A token is valid where
  the mask is clear; a valid token with `fg < 0.3` is discarded; a valid token with `ss ≥ 0.6` is split, and replaced
  by half the sum of the two halves of `relu (x · W + b)`. The result at token `(n, b)`, channel `q` is

      x · keep · (1 − split) + merged · split          (`TokenRow.tokenOut`).

  The kernel flattens tokens to rows `4 n + b`, runs 32 blocks of 1024 rows through one fused body and reshapes back;
  the reference works on the unflattened arrays. They differ in the grouping of the triple product and in how a
  comparison's bit becomes 0 or 1; multiplication of extended reals is associative and the two readings agree, so no
  finiteness of the inputs is used. The kernel's matrix product into a zero accumulator and the reference's
  contraction are the same sum over the 256 embedding channels.

  The frames are the generated ones (the reference's frame is its generated run with the result dropped); no operation
  was rewritten by the idealization, so there is nothing to preserve; the value claim sets the kernel's run
  (`KernelResult`) beside the reference's (`RefArray`), both at `TokenRow.tokensOut` of the arguments.
-/
import proofs.«156257_g52329881534501_cont_9to1_m_872_2_alg».proof.Defs
import proofs.«156257_g52329881534501_cont_9to1_m_872_2_alg».proof.Proof.Gen.Kernel
import proofs.«156257_g52329881534501_cont_9to1_m_872_2_alg».proof.Proof.Gen.Kernel.Skeleton
import proofs.«156257_g52329881534501_cont_9to1_m_872_2_alg».proof.Proof.Gen.Kernel.Launch
import proofs.«156257_g52329881534501_cont_9to1_m_872_2_alg».proof.Proof.Gen.Kernel.Points
import proofs.«156257_g52329881534501_cont_9to1_m_872_2_alg».proof.Proof.Gen.Kernel.Frame
import proofs.«156257_g52329881534501_cont_9to1_m_872_2_alg».proof.Proof.Gen.KernelIdeal
import proofs.«156257_g52329881534501_cont_9to1_m_872_2_alg».proof.Proof.Gen.KernelIdeal.Skeleton
import proofs.«156257_g52329881534501_cont_9to1_m_872_2_alg».proof.Proof.Gen.KernelIdeal.Launch
import proofs.«156257_g52329881534501_cont_9to1_m_872_2_alg».proof.Proof.Gen.KernelIdeal.Points
import proofs.«156257_g52329881534501_cont_9to1_m_872_2_alg».proof.Proof.Gen.KernelIdeal.Frame
import proofs.«156257_g52329881534501_cont_9to1_m_872_2_alg».proof.Proof.Gen.ReferenceIdeal
import proofs.«156257_g52329881534501_cont_9to1_m_872_2_alg».proof.Proof.Gen.Pre_finite_inputs
import proofs.«156257_g52329881534501_cont_9to1_m_872_2_alg».proof.Proof.Gen.ReferenceIdeal.Run
import proofs.«156257_g52329881534501_cont_9to1_m_872_2_alg».proof.Proof.Gen.ReferenceIdeal.Read
import Idealize.ShloMosaic.Adequacy
import Idealize.ShloMosaic.Init
import proofs.«156257_g52329881534501_cont_9to1_m_872_2_alg».proof.Proof.KernelResult
import proofs.«156257_g52329881534501_cont_9to1_m_872_2_alg».proof.Proof.RefArray
import proofs.«156257_g52329881534501_cont_9to1_m_872_2_alg».proof.Proof.LibRunAnd

noncomputable section

namespace Cert.Proof

open Idealize.ShloMosaic Idealize.SL.Sem Cert.TokenRow

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the six arguments, both programs end with the result array at
    `tokensOut` of those arguments, and leave the arguments as they were. -/
theorem algebraic : Cert.algebraic_KernelIdeal_ReferenceIdeal := by
  intro m ρ m' ρ' _ hagree
  refine ⟨fun c => tokensOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c => ⟨h.1 c, h.2 c⟩)
      (Cert.RunAnd.θ_run_and _ _ _ (Cert.KernelIdeal.Arr.run_value m ρ) (Cert.KernelIdeal.Gen.frame m ρ))
  · refine (θ_run Cert.ReferenceIdeal.defs _ _).mono (fun r h c => ⟨?_, (h c).2⟩)
      (Cert.ReferenceIdeal.Value.run (F := Ideal) m' ρ')
    refine (h c).1.trans ?_
    refine (Cert.ReferenceIdeal.Read.val_main_v34_eq (F := Ideal) _ _ _ _ _ _).trans ?_
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
